-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64 .f32) (main_arg7 : FVec F S64x64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S3200000 32) (main_arg2 : IVec S3200000 32) (main_arg3 : FVec F S3200000 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_v13 main_v16
-- ==== Kernel.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S10000x64 : Shape := ⟨2, ![10000, 64]⟩

abbrev nBuf : Space → Nat
  | .hbm => 46
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x1, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x64, .f32⟩
  | .hbm, ⟨37, _⟩ => ⟨S3200000x1, .f32⟩
  | .hbm, ⟨38, _⟩ => ⟨S3200000x64, .f32⟩
  | .hbm, ⟨39, _⟩ => ⟨S3200000x64, .f32⟩
  | .hbm, ⟨40, _⟩ => ⟨S_, .f32⟩
  | .hbm, ⟨41, _⟩ => ⟨S100000x64, .f32⟩
  | .hbm, ⟨42, _⟩ => ⟨S3200000x1, .i32⟩
  | .hbm, ⟨43, _⟩ => ⟨S100000x64, .f32⟩
  | .hbm, ⟨44, _⟩ => ⟨S1x64, .f32⟩
  | .hbm, ⟨45, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x1, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x64, .f32⟩
  | .hbm, ⟨44, _⟩ => ⟨S3200000x1, .f32⟩
  | .hbm, ⟨45, _⟩ => ⟨S3200000x64, .f32⟩
  | .hbm, ⟨46, _⟩ => ⟨S3200000x64, .f32⟩
  | .hbm, ⟨47, _⟩ => ⟨S_, .f32⟩
  | .hbm, ⟨48, _⟩ => ⟨S100000x64, .f32⟩
  | .hbm, ⟨49, _⟩ => ⟨S3200000x1, .i32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result kept.

  The program is four stretches in a row: host operations, the first layer's pallas_call, host operations, the second layer's
  pallas_call. Every weakly fair execution terminates without a fault, and at the end every buffer that outlives the kernels holds
  what the fold of those four stretches leaves in it: after a host stretch what its operations compute from the contents before
  it, after a pallas_call its output array as the write-backs of all grid points leave it and everything else untouched. Read at
  the result buffer that fold is the second call's output array; read at an argument it is the argument as launched.
-/
import proofs.«127148_j29901562315009_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at what the fold of the four
    stretches leaves there (`V4`), and the ten arguments end as launched. -/
theorem run : θ_run defs (onTc (τ := τ) (main (F := F))) ⟨m, fun _ => 0, ρ⟩ (fun r => ∀ c : Dev nD,
      r.2.mem ((c.tc : Thread nD τ).loc main_v29) = V4 m ρ c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Result

end
-- ==== Proof.Dense.lean ====
/-
  The dense half of one graph-convolution layer, as a function of arrays, index by index.

  A layer takes the node features `x` (one row of 64 numbers per node), the aggregated neighbour features `hn` (same shape),
  two 64 × 64 weight matrices and a bias row, and gives node `p`, feature `q` the number
      ∑ₖ x[p, k] · Ws[k, q]  +  ∑ₖ hn[p, k] · Wn[k, q]  +  b[q].
  The first layer then clamps below at the zero word (the rectifier); the second does not. The whole network is two such layers,
  the neighbour features of each being ONE fixed function `agg` (gather the rows of the edges' sources, scale by the edge
  weights, add into the edges' destinations) of that layer's input. Nothing here depends on what `agg` is: both programs apply
  the same one, so it stays a parameter.
-/
import Idealize.ShloMosaic.PureOps.Ideal.Laws
import Idealize.ShloMosaic.Lib.ValueIdx

noncomputable section

open scoped BigOperators

namespace Cert.Sage

open Idealize.ShloMosaic Idealize.ShloMosaic.ValueIdx

/-- The zero word read as an extended real; it is the same word in both programs and is never evaluated. -/
abbrev zeroWord : EReal := Ideal.ofBits .f32 0x00000000#32

/-- Row `p`, column `q` of `x · Ws + hn · Wn + b`, for arrays of `n` rows; the bias is a `1 × 64` row. -/
def lin {n : Nat} (x hn : (⟨2, ![n, 64]⟩ : Shape).Idx → EReal) (ws wn : (⟨2, ![64, 64]⟩ : Shape).Idx → EReal)
    (b : (⟨2, ![1, 64]⟩ : Shape).Idx → EReal) (p : Fin n) (q : Fin 64) : EReal :=
  (∑ k : Fin 64, x (ix2 p k) * ws (ix2 k q)) + (∑ k : Fin 64, hn (ix2 p k) * wn (ix2 k q)) + b (ix2 (0 : Fin 1) q)

/-- The entry depends on `x` and `hn` only through row `p`, on the weights only through column `q`, on the bias only at `q`:
    two families of arrays that agree there give the same entry, whatever their numbers of rows. -/
theorem lin_congr {n n' : Nat} {x hn : (⟨2, ![n, 64]⟩ : Shape).Idx → EReal} {x' hn' : (⟨2, ![n', 64]⟩ : Shape).Idx → EReal}
    {ws wn ws' wn' : (⟨2, ![64, 64]⟩ : Shape).Idx → EReal} {b b' : (⟨2, ![1, 64]⟩ : Shape).Idx → EReal}
    {p : Fin n} {p' : Fin n'} {q q' : Fin 64}
    (hx : ∀ k, x (ix2 p k) = x' (ix2 p' k)) (hh : ∀ k, hn (ix2 p k) = hn' (ix2 p' k))
    (hs : ∀ k, ws (ix2 k q) = ws' (ix2 k q')) (hw : ∀ k, wn (ix2 k q) = wn' (ix2 k q'))
    (hb : b (ix2 (0 : Fin 1) q) = b' (ix2 (0 : Fin 1) q')) :
    lin x hn ws wn b p q = lin x' hn' ws' wn' b' p' q' := by
  have e1 : (∑ k : Fin 64, x (ix2 p k) * ws (ix2 k q)) = ∑ k : Fin 64, x' (ix2 p' k) * ws' (ix2 k q') :=
    Finset.sum_congr rfl fun k _ => by rw [hx k, hs k]
  have e2 : (∑ k : Fin 64, hn (ix2 p k) * wn (ix2 k q)) = ∑ k : Fin 64, hn' (ix2 p' k) * wn' (ix2 k q') :=
    Finset.sum_congr rfl fun k _ => by rw [hh k, hw k]
  unfold lin
  rw [e1, e2, hb]

/-- A layer without activation, over the whole node array. -/
def layer (x hn : (⟨2, ![100000, 64]⟩ : Shape).Idx → EReal) (ws wn : (⟨2, ![64, 64]⟩ : Shape).Idx → EReal)
    (b : (⟨2, ![1, 64]⟩ : Shape).Idx → EReal) : (⟨2, ![100000, 64]⟩ : Shape).Idx → EReal :=
  fun i => lin x hn ws wn b (i 0) (i 1)

/-- A layer followed by the rectifier `max · 0`. -/
def layerRelu (x hn : (⟨2, ![100000, 64]⟩ : Shape).Idx → EReal) (ws wn : (⟨2, ![64, 64]⟩ : Shape).Idx → EReal)
    (b : (⟨2, ![1, 64]⟩ : Shape).Idx → EReal) : (⟨2, ![100000, 64]⟩ : Shape).Idx → EReal :=
  fun i => max (lin x hn ws wn b (i 0) (i 1)) zeroWord

/-- A bias vector of 64 numbers laid out as a `1 × 64` row. -/
def row (b : (⟨1, ![64]⟩ : Shape).Idx → EReal) : (⟨2, ![1, 64]⟩ : Shape).Idx → EReal := fun j => b (ix1 (j 1))

/-- The two layers: the hidden features are the rectified first layer of the input and its aggregate, the result the second
    layer of the hidden features and THEIR aggregate. -/
def net (agg : ((⟨2, ![100000, 64]⟩ : Shape).Idx → EReal) → (⟨2, ![100000, 64]⟩ : Shape).Idx → EReal)
    (x : (⟨2, ![100000, 64]⟩ : Shape).Idx → EReal) (ws0 wn0 : (⟨2, ![64, 64]⟩ : Shape).Idx → EReal)
    (b0 : (⟨1, ![64]⟩ : Shape).Idx → EReal) (ws1 wn1 : (⟨2, ![64, 64]⟩ : Shape).Idx → EReal)
    (b1 : (⟨1, ![64]⟩ : Shape).Idx → EReal) : (⟨2, ![100000, 64]⟩ : Shape).Idx → EReal :=
  layer (layerRelu x (agg x) ws0 wn0 (row b0)) (agg (layerRelu x (agg x) ws0 wn0 (row b0))) ws1 wn1 (row b1)

end Cert.Sage

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Tile0.lean ====
/-
  What the first layer's kernel body stores, read at one entry of its tile.

  The body loads a tile of 10000 node rows of the features and of the aggregate, both weight matrices and the bias row, rounds
  the four matrix operands to a narrower float format (no change over the extended reals), forms the two matrix products into
  zero accumulators, adds them, adds the bias row broadcast down the tile, and clamps below at zero. At row `p`, column `q` of
  the tile that is the rectified entry of the dense layer on the tile's rows.
-/
import proofs.«127148_j29901562315009_1_alg».proof.Proof.Gen.KernelIdeal.Skeleton
import proofs.«127148_j29901562315009_1_alg».proof.Proof.Dense
import proofs.«127148_j29901562315009_1_alg».proof.Proof.LibDotCols
import Idealize.ShloMosaic.Lib.ValueLayout
import Idealize.ShloMosaic.Lib.Pipeline.Value

noncomputable section

open scoped BigOperators

namespace Cert.Sage

open Idealize.ShloMosaic Idealize.ShloMosaic.ValueIdx Cert.KernelIdeal Cert.KernelIdeal.Gen

/-- The printed dimension numbers of the body's products are the plain ones: contract the left operand's columns with the
    right operand's rows. -/
theorem dot_plain : dot_S10000x64_S64x64_S10000x64_1_0_0_1_n_n = DotDims.plain 10000 64 64 := rfl

/-- The stored tile at `(p, q)`: the rectified dense-layer entry of the loaded tiles, weights and bias row. -/
theorem pay0_apply (x0 x1 : FVec Ideal S10000x64 .f32) (x2 x3 : FVec Ideal S64x64 .f32) (x4 : FVec Ideal S1x64 .f32)
    (p : Fin 10000) (q : Fin 64) :
    k0_pay1 (F := Ideal) x0 x1 x2 x3 x4 (ix2 p q) = max (lin x0 x1 x2 x3 x4 p q) zeroWord := by
  unfold k0_pay1
  simp only [shapeCast_self]
  rw [maximumf_apply, addf_apply, addf_apply, broadcast_apply]
  have e1 := Cert.Lib.DotCols.matmul_cols_apply dot_S10000x64_S64x64_S10000x64_1_0_0_1_n_n dot_plain none
    (truncf .bf16 x0 bitsLt_bf16_f32) (truncf .bf16 x2 bitsLt_bf16_f32) p q
  have e2 := Cert.Lib.DotCols.matmul_cols_apply dot_S10000x64_S64x64_S10000x64_1_0_0_1_n_n dot_plain none
    (truncf .bf16 x1 bitsLt_bf16_f32) (truncf .bf16 x3 bitsLt_bf16_f32) p q
  have e3 := broadcastTo_1b_ab_apply x4 broadcasts_S1x64_S10000x64 p q
  unfold lin
  exact congrArg₂ max (congrArg₂ (· + ·) (congrArg₂ (· + ·) e1 e2) e3) rfl

end Cert.Sage

end
-- ==== Proof.Region0.lean ====
/-
  The first layer's output array after its pallas_call, as one function of the five arrays the call reads.

  The grid has ten points; point `t` reads rows `10000·t … 10000·t + 9999` of the node features and of the aggregate, the whole of
  both weight matrices and the whole bias row, and writes back the same rows of the output. So what a point writes back is the
  block, at its rows, of ONE array: the rectified dense layer of the five arrays, entry by entry. Row `i` lies in the block of point
  `i / 10000`, so the ten blocks cover the output array, and after the last point the array is that function. The five arrays are
  the buffers' contents when the call is entered, whatever they are.
-/
import proofs.«127148_j29901562315009_1_alg».proof.Proof.Gen.KernelIdeal.Frame
import proofs.«127148_j29901562315009_1_alg».proof.Proof.Tile0
import Idealize.ShloMosaic.Lib.Pipeline.Value

set_option maxRecDepth 16384

noncomputable section

namespace Cert.Sage.Region0

open Cert.Sage Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Every access of the body starts at the corner of its buffer. -/
theorem corner : (![0, 0] : Fin 2 → Nat) = fun _ => 0 := funext fun a => by fin_cases a <;> rfl

/-- The block indices of the six windows at a grid point, decided over the ten points: the two row-tiled inputs move with the
    output along the rows, nothing moves along the columns, the weights and the bias row stay at block zero. -/
theorem blocks : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Each of the ten row blocks of the output is some point's. -/
theorem block_of_row : ∀ b : Fin 10, ∃ t : Fin cfg0.N, win0_5.index t = ![b.val, 0] :=
  (by decide +kernel : ∀ b : Fin 10, ∃ t : Fin grid0.N, win0_5.index t = ![b.val, 0])

/-- WHAT POINT `t` WRITES BACK is block `t` of the rectified dense layer of the five arrays as the call finds them. -/
theorem flushed (c : Dev nD) (t : Fin cfg0.N) :
    (dat0 V c).flushed 5 t = ((cfg0.win 5).blk t).view.read (Elt Ideal)
      (layerRelu (V c main_arg0) (V c main_v12) (V c main_arg4) (V c main_arg5) (V c main_v13)) := by
  show (cfg0.win 5).cut (grid0.coords t) ((dat0 V c).after 5 t) = _
  rw [after0_5]
  unfold out0_5
  rw [View.canon_unit_zero corner]
  simp only [View.ld_unit_zero (S := S10000x64) corner, View.ld_unit_zero (S := S64x64) corner, View.ld_unit_zero (S := S1x64) corner]
  obtain ⟨e00, e01, e10, e11, e20, e21, e30, e31, e40, e41, e51, e50⟩ := blocks t
  funext j
  obtain ⟨p, q, rfl⟩ : ∃ (p : Fin 10000) (q : Fin 64), j = ix2 p q := ⟨j 0, j 1, eq_ix2 j⟩
  refine (pay0_apply _ _ _ _ _ p q).trans ?_
  -- the output entry's own row in the whole array
  have hp : p.val < 10000 := p.isLt
  have hP : win0_5.index t (0 : Fin 2) * 10000 + p.val < 100000 := by omega
  have hemb : ((cfg0.win 5).blk t).view.emb (ix2 p q) = ix2 (⟨win0_5.index t (0 : Fin 2) * 10000 + p.val, hP⟩ : Fin 100000) q := by
    funext a; apply Fin.ext
    match a with
    | ⟨0, _⟩ => show win0_5.index t (0 : Fin 2) * 10000 + 1 * p.val = win0_5.index t (0 : Fin 2) * 10000 + p.val; omega
    | ⟨1, _⟩ => show win0_5.index t (1 : Fin 2) * 64 + 1 * q.val = q.val; omega
  rw [View.read_apply, hemb]
  show max (lin (iblk0 V c 0 t) (iblk0 V c 1 t) (iblk0 V c 2 t) (iblk0 V c 3 t) (iblk0 V c 4 t) p q) zeroWord
    = max (lin (V c main_arg0) (V c main_v12) (V c main_arg4) (V c main_arg5) (V c main_v13)
        (⟨win0_5.index t (0 : Fin 2) * 10000 + p.val, hP⟩ : Fin 100000) q) zeroWord
  refine congrArg (max · zeroWord) (lin_congr (fun k => ?_) (fun k => ?_) (fun k => ?_) (fun k => ?_) ?_)
  · -- the features' block: the output's rows, all 64 columns
    show V c main_arg0 (((cfg0.win 0).blk t).view.emb (ix2 p k)) = _
    refine congrArg _ (funext fun a => Fin.ext ?_)
    match a with
    | ⟨0, _⟩ => show win0_0.index t (0 : Fin 2) * 10000 + 1 * p.val = win0_5.index t (0 : Fin 2) * 10000 + p.val; omega
    | ⟨1, _⟩ => show win0_0.index t (1 : Fin 2) * 64 + 1 * k.val = k.val; omega
  · -- the aggregate's block: the same rows
    show V c main_v12 (((cfg0.win 1).blk t).view.emb (ix2 p k)) = _
    refine congrArg _ (funext fun a => Fin.ext ?_)
    match a with
    | ⟨0, _⟩ => show win0_1.index t (0 : Fin 2) * 10000 + 1 * p.val = win0_5.index t (0 : Fin 2) * 10000 + p.val; omega
    | ⟨1, _⟩ => show win0_1.index t (1 : Fin 2) * 64 + 1 * k.val = k.val; omega
  · -- the self weights: the whole matrix at every point
    show V c main_arg4 (((cfg0.win 2).blk t).view.emb (ix2 k q)) = _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  · -- the neighbour weights: the whole matrix at every point
    show V c main_arg5 (((cfg0.win 3).blk t).view.emb (ix2 k q)) = _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  · -- the bias row: the whole row at every point
    show V c main_v13 (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega

/-- An index of the output array is in point `t`'s block iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v14).slice (win0_5.rect t)).set ↔ _
  rw [View.set_slice_whole, Rect.mem_set_unit]
  exact Iff.rfl

/-- Row `i` is written back by the point whose block index is `i / 10000`: the ten blocks cover the output array. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := block_of_row ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY after the last point: the rectified dense layer of the five arrays as the call finds them. -/
theorem final (c : Dev nD) :
    (dat0 V c).arrAt 5 cfg0.N = layerRelu (V c main_arg0) (V c main_v12) (V c main_arg4) (V c main_arg5) (V c main_v13) :=
  (dat0 V c).arrAt_eq_of_cover 5 _ (fun t _ => flushed V c t) covered

end Cert.Sage.Region0

end
-- ==== Proof.Tile1.lean ====
/-
  What the second layer's kernel body stores, read at one entry of its tile: the same loads, roundings, two matrix products, sum
  and bias row as the first layer's body, with no clamp at the end. At row `p`, column `q` of the tile that is the dense-layer
  entry on the tile's rows.
-/
import proofs.«127148_j29901562315009_1_alg».proof.Proof.Gen.KernelIdeal.Skeleton
import proofs.«127148_j29901562315009_1_alg».proof.Proof.Dense
import proofs.«127148_j29901562315009_1_alg».proof.Proof.LibDotCols
import Idealize.ShloMosaic.Lib.ValueLayout
import Idealize.ShloMosaic.Lib.Pipeline.Value

noncomputable section

open scoped BigOperators

namespace Cert.Sage

open Idealize.ShloMosaic Idealize.ShloMosaic.ValueIdx Cert.KernelIdeal Cert.KernelIdeal.Gen

/-- The stored tile at `(p, q)`: the dense-layer entry of the loaded tiles, weights and bias row. -/
theorem pay1_apply (x0 x1 : FVec Ideal S10000x64 .f32) (x2 x3 : FVec Ideal S64x64 .f32) (x4 : FVec Ideal S1x64 .f32)
    (p : Fin 10000) (q : Fin 64) :
    k1_pay1 (F := Ideal) x0 x1 x2 x3 x4 (ix2 p q) = lin x0 x1 x2 x3 x4 p q := by
  unfold k1_pay1
  simp only [shapeCast_self]
  rw [addf_apply, addf_apply]
  have e1 := Cert.Lib.DotCols.matmul_cols_apply dot_S10000x64_S64x64_S10000x64_1_0_0_1_n_n
    (show dot_S10000x64_S64x64_S10000x64_1_0_0_1_n_n = DotDims.plain 10000 64 64 from rfl) none
    (truncf .bf16 x0 bitsLt_bf16_f32) (truncf .bf16 x2 bitsLt_bf16_f32) p q
  have e2 := Cert.Lib.DotCols.matmul_cols_apply dot_S10000x64_S64x64_S10000x64_1_0_0_1_n_n
    (show dot_S10000x64_S64x64_S10000x64_1_0_0_1_n_n = DotDims.plain 10000 64 64 from rfl) none
    (truncf .bf16 x1 bitsLt_bf16_f32) (truncf .bf16 x3 bitsLt_bf16_f32) p q
  have e3 := broadcastTo_1b_ab_apply x4 broadcasts_S1x64_S10000x64 p q
  unfold lin
  exact congrArg₂ (· + ·) (congrArg₂ (· + ·) e1 e2) e3

end Cert.Sage

end
-- ==== Proof.Region1.lean ====
/-
  The second layer's output array after its pallas_call, as one function of the five arrays the call reads.

  The grid has ten points; point `t` reads rows `10000·t … 10000·t + 9999` of the node features and of the aggregate, the whole of
  both weight matrices and the whole bias row, and writes back the same rows of the output. So what a point writes back is the
  block, at its rows, of ONE array: the dense layer of the five arrays, entry by entry. Row `i` lies in the block of point
  `i / 10000`, so the ten blocks cover the output array, and after the last point the array is that function. The five arrays are
  the buffers' contents when the call is entered, whatever they are.
-/
import proofs.«127148_j29901562315009_1_alg».proof.Proof.Gen.KernelIdeal.Frame
import proofs.«127148_j29901562315009_1_alg».proof.Proof.Tile1
import Idealize.ShloMosaic.Lib.Pipeline.Value

set_option maxRecDepth 16384

noncomputable section

namespace Cert.Sage.Region1

open Cert.Sage Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Every access of the body starts at the corner of its buffer. -/
theorem corner : (![0, 0] : Fin 2 → Nat) = fun _ => 0 := funext fun a => by fin_cases a <;> rfl

/-- The block indices of the six windows at a grid point, decided over the ten points: the two row-tiled inputs move with the
    output along the rows, nothing moves along the columns, the weights and the bias row stay at block zero. -/
theorem blocks : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Each of the ten row blocks of the output is some point's. -/
theorem block_of_row : ∀ b : Fin 10, ∃ t : Fin cfg1.N, win1_5.index t = ![b.val, 0] :=
  (by decide +kernel : ∀ b : Fin 10, ∃ t : Fin grid1.N, win1_5.index t = ![b.val, 0])

/-- WHAT POINT `t` WRITES BACK is block `t` of the dense layer of the five arrays as the call finds them. -/
theorem flushed (c : Dev nD) (t : Fin cfg1.N) :
    (dat1 V c).flushed 5 t = ((cfg1.win 5).blk t).view.read (Elt Ideal)
      (layer (V c main_v14) (V c main_v27) (V c main_arg7) (V c main_arg8) (V c main_v28)) := by
  show (cfg1.win 5).cut (grid1.coords t) ((dat1 V c).after 5 t) = _
  rw [after1_5]
  unfold out1_5
  rw [View.canon_unit_zero corner]
  simp only [View.ld_unit_zero (S := S10000x64) corner, View.ld_unit_zero (S := S64x64) corner, View.ld_unit_zero (S := S1x64) corner]
  obtain ⟨e00, e01, e10, e11, e20, e21, e30, e31, e40, e41, e51, e50⟩ := blocks t
  funext j
  obtain ⟨p, q, rfl⟩ : ∃ (p : Fin 10000) (q : Fin 64), j = ix2 p q := ⟨j 0, j 1, eq_ix2 j⟩
  refine (pay1_apply _ _ _ _ _ p q).trans ?_
  -- the output entry's own row in the whole array
  have hp : p.val < 10000 := p.isLt
  have hP : win1_5.index t (0 : Fin 2) * 10000 + p.val < 100000 := by omega
  have hemb : ((cfg1.win 5).blk t).view.emb (ix2 p q) = ix2 (⟨win1_5.index t (0 : Fin 2) * 10000 + p.val, hP⟩ : Fin 100000) q := by
    funext a; apply Fin.ext
    match a with
    | ⟨0, _⟩ => show win1_5.index t (0 : Fin 2) * 10000 + 1 * p.val = win1_5.index t (0 : Fin 2) * 10000 + p.val; omega
    | ⟨1, _⟩ => show win1_5.index t (1 : Fin 2) * 64 + 1 * q.val = q.val; omega
  rw [View.read_apply, hemb]
  show lin (iblk1 V c 0 t) (iblk1 V c 1 t) (iblk1 V c 2 t) (iblk1 V c 3 t) (iblk1 V c 4 t) p q
    = lin (V c main_v14) (V c main_v27) (V c main_arg7) (V c main_arg8) (V c main_v28)
        (⟨win1_5.index t (0 : Fin 2) * 10000 + p.val, hP⟩ : Fin 100000) q
  refine (lin_congr (fun k => ?_) (fun k => ?_) (fun k => ?_) (fun k => ?_) ?_)
  · -- the features' block: the output's rows, all 64 columns
    show V c main_v14 (((cfg1.win 0).blk t).view.emb (ix2 p k)) = _
    refine congrArg _ (funext fun a => Fin.ext ?_)
    match a with
    | ⟨0, _⟩ => show win1_0.index t (0 : Fin 2) * 10000 + 1 * p.val = win1_5.index t (0 : Fin 2) * 10000 + p.val; omega
    | ⟨1, _⟩ => show win1_0.index t (1 : Fin 2) * 64 + 1 * k.val = k.val; omega
  · -- the aggregate's block: the same rows
    show V c main_v27 (((cfg1.win 1).blk t).view.emb (ix2 p k)) = _
    refine congrArg _ (funext fun a => Fin.ext ?_)
    match a with
    | ⟨0, _⟩ => show win1_1.index t (0 : Fin 2) * 10000 + 1 * p.val = win1_5.index t (0 : Fin 2) * 10000 + p.val; omega
    | ⟨1, _⟩ => show win1_1.index t (1 : Fin 2) * 64 + 1 * k.val = k.val; omega
  · -- the self weights: the whole matrix at every point
    show V c main_arg7 (((cfg1.win 2).blk t).view.emb (ix2 k q)) = _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · -- the neighbour weights: the whole matrix at every point
    show V c main_arg8 (((cfg1.win 3).blk t).view.emb (ix2 k q)) = _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · -- the bias row: the whole row at every point
    show V c main_v28 (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega

/-- An index of the output array is in point `t`'s block iff each coordinate is in the block's range on its axis. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v29).slice (win1_5.rect t)).set ↔ _
  rw [View.set_slice_whole, Rect.mem_set_unit]
  exact Iff.rfl

/-- Row `i` is written back by the point whose block index is `i / 10000`: the ten blocks cover the output array. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := block_of_row ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after the last point: the dense layer of the five arrays as the call finds them. -/
theorem final (c : Dev nD) :
    (dat1 V c).arrAt 5 cfg1.N = layer (V c main_v14) (V c main_v27) (V c main_arg7) (V c main_arg8) (V c main_v28) :=
  (dat1 V c).arrAt_eq_of_cover 5 _ (fun t _ => flushed V c t) covered

end Cert.Sage.Region1

end
-- ==== Proof.HostK.lean ====
/-
  What the host operations of the kernel program leave in the buffers each pallas_call reads.

  Before each call the host computes the NEIGHBOUR AGGREGATE of that layer's input `h`: wrap negative source indices by the node
  count, gather the source rows of `h`, scale each gathered row by its edge weight, and add the scaled rows into a zero array at the
  destination indices. That chain is one function `agg src dst w h` and is never opened here: the other program applies the same
  chain. It also lays the layer's bias vector out as a `1 × 64` row. Before the first call the input is the features argument; before
  the second it is the first call's output array, and the arguments the second stretch reads are still as launched, since neither the
  first stretch nor the first call writes them.
-/
import proofs.«127148_j29901562315009_1_alg».proof.Proof.Gen.KernelIdeal.Frame
import proofs.«127148_j29901562315009_1_alg».proof.Proof.Dense
import Idealize.ShloMosaic.Lib.StableHlo.Run
import Idealize.ShloMosaic.Lib.ValueLayout

set_option maxRecDepth 16384

noncomputable section

namespace Cert.Sage.Host

open Cert.Sage Cert.KernelIdeal Cert.KernelIdeal.Gen
open Idealize.ShloMosaic Idealize.ShloMosaic.TcCoe Idealize.ShloMosaic.ValueIdx Idealize.SL.Sem Idealize.ShloMosaic.StableHlo

/-- The neighbour aggregate of `h` along the edges `src → dst` with weights `w`, as the host operations spell it. -/
def agg (src dst : (⟨S3200000, .i32⟩ : BufTy).Contents (Elt Ideal)) (w : (⟨S3200000, .f32⟩ : BufTy).Contents (Elt Ideal))
    (h : (⟨S100000x64, .f32⟩ : BufTy).Contents (Elt Ideal)) : (⟨S100000x64, .f32⟩ : BufTy).Contents (Elt Ideal) :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (mulf
      (Host.gather gather_S100000x64_S3200000x1_S3200000x64_1_0_n_n_0_1_164 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x64 ![0, 1] bcast_S3200000x1_S3200000x64_0_1
        (broadcastInDim S3200000x1 ![0] bcast_S3200000_S3200000x1_0 w)))

/-- A vector of 64 numbers reshaped to `1 × 64` is the bias row: entry `(0, q)` is entry `q`. -/
theorem reshape_row (b : (⟨S64, .f32⟩ : BufTy).Contents (Elt Ideal)) (h : S64.ShapeCasts S1x64) : shapeCast S1x64 b h = row b := by
  funext j
  obtain ⟨u, q, rfl⟩ : ∃ (u : Fin 1) (q : Fin 64), j = ix2 u q := ⟨j 0, j 1, eq_ix2 j⟩
  exact shapeCast_a_1a_apply b h u q

variable (m : (ℓ : Loc nD τ sig) → Buf (Elt Ideal) ℓ) (ρ : Dev nD → PrngReg) (c : Dev nD)

/-! ## At the first call's entry -/

theorem V1_arg0 : V1 m ρ c main_arg0 = m ((c : Thread nD τ).loc main_arg0) := by
  show StableHlo.after hostOps0 (W0 m ρ c) (Proc.devRef .tc main_arg0) = _
  after_results
theorem V1_arg4 : V1 m ρ c main_arg4 = m ((c : Thread nD τ).loc main_arg4) := by
  show StableHlo.after hostOps0 (W0 m ρ c) (Proc.devRef .tc main_arg4) = _
  after_results
theorem V1_arg5 : V1 m ρ c main_arg5 = m ((c : Thread nD τ).loc main_arg5) := by
  show StableHlo.after hostOps0 (W0 m ρ c) (Proc.devRef .tc main_arg5) = _
  after_results
/-- The first call's aggregate operand is the aggregate of the features. -/
theorem V1_v12 : V1 m ρ c main_v12 = agg (m ((c : Thread nD τ).loc main_arg1)) (m ((c : Thread nD τ).loc main_arg2))
    (m ((c : Thread nD τ).loc main_arg3)) (m ((c : Thread nD τ).loc main_arg0)) := by
  show StableHlo.after hostOps0 (W0 m ρ c) (Proc.devRef .tc main_v12) = _
  after_results; rfl
/-- The first call's bias operand is the first bias vector as a row. -/
theorem V1_v13 : V1 m ρ c main_v13 = row (m ((c : Thread nD τ).loc main_arg6)) := by
  have e : V1 m ρ c main_v13 = shapeCast S1x64 (m ((c : Thread nD τ).loc main_arg6)) shapeCasts_S64_S1x64 := by
    show StableHlo.after hostOps0 (W0 m ρ c) (Proc.devRef .tc main_v13) = _
    after_results; rfl
  rw [e, reshape_row]

/-! ## Between the calls: the arguments the second stretch reads are as launched -/

theorem W2_arg (b : Ref sig .tc) (hb : ∀ w, Pipeline.arrRef spec0 w ≠ b)
    (h1 : W1 m ρ c (Proc.devRef .tc b) = m ((c : Thread nD τ).loc b)) :
    W2 m ρ c (Proc.devRef .tc b) = m ((c : Thread nD τ).loc b) := (W2_of_ne m ρ c b hb).trans h1

theorem W2_arg1 : W2 m ρ c (Proc.devRef .tc main_arg1) = m ((c : Thread nD τ).loc main_arg1) :=
  W2_arg m ρ c main_arg1 (by decide) (by show StableHlo.after hostOps0 (W0 m ρ c) (Proc.devRef .tc main_arg1) = _; after_results)
theorem W2_arg2 : W2 m ρ c (Proc.devRef .tc main_arg2) = m ((c : Thread nD τ).loc main_arg2) :=
  W2_arg m ρ c main_arg2 (by decide) (by show StableHlo.after hostOps0 (W0 m ρ c) (Proc.devRef .tc main_arg2) = _; after_results)
theorem W2_arg3 : W2 m ρ c (Proc.devRef .tc main_arg3) = m ((c : Thread nD τ).loc main_arg3) :=
  W2_arg m ρ c main_arg3 (by decide) (by show StableHlo.after hostOps0 (W0 m ρ c) (Proc.devRef .tc main_arg3) = _; after_results)
theorem W2_arg7 : W2 m ρ c (Proc.devRef .tc main_arg7) = m ((c : Thread nD τ).loc main_arg7) :=
  W2_arg m ρ c main_arg7 (by decide) (by show StableHlo.after hostOps0 (W0 m ρ c) (Proc.devRef .tc main_arg7) = _; after_results)
theorem W2_arg8 : W2 m ρ c (Proc.devRef .tc main_arg8) = m ((c : Thread nD τ).loc main_arg8) :=
  W2_arg m ρ c main_arg8 (by decide) (by show StableHlo.after hostOps0 (W0 m ρ c) (Proc.devRef .tc main_arg8) = _; after_results)
theorem W2_arg9 : W2 m ρ c (Proc.devRef .tc main_arg9) = m ((c : Thread nD τ).loc main_arg9) :=
  W2_arg m ρ c main_arg9 (by decide) (by show StableHlo.after hostOps0 (W0 m ρ c) (Proc.devRef .tc main_arg9) = _; after_results)

/-! ## At the second call's entry -/

/-- The second call's features operand is the first call's output array, untouched by the second stretch. -/
theorem V3_v14 : V3 m ρ c main_v14 = (dat0 (V1 m ρ) c).arrAt 5 cfg0.N := by
  have e : V3 m ρ c main_v14 = W2 m ρ c (Proc.devRef .tc main_v14) := by
    show StableHlo.after hostOps1 (W2 m ρ c) (Proc.devRef .tc main_v14) = _
    after_results
  rw [e]; exact W2_arr m ρ c 5
theorem V3_arg7 : V3 m ρ c main_arg7 = m ((c : Thread nD τ).loc main_arg7) := by
  have e : V3 m ρ c main_arg7 = W2 m ρ c (Proc.devRef .tc main_arg7) := by
    show StableHlo.after hostOps1 (W2 m ρ c) (Proc.devRef .tc main_arg7) = _
    after_results
  rw [e]; exact W2_arg7 m ρ c
theorem V3_arg8 : V3 m ρ c main_arg8 = m ((c : Thread nD τ).loc main_arg8) := by
  have e : V3 m ρ c main_arg8 = W2 m ρ c (Proc.devRef .tc main_arg8) := by
    show StableHlo.after hostOps1 (W2 m ρ c) (Proc.devRef .tc main_arg8) = _
    after_results
  rw [e]; exact W2_arg8 m ρ c
/-- The second call's aggregate operand is the aggregate of the first call's output array. -/
theorem V3_v27 : V3 m ρ c main_v27 = agg (m ((c : Thread nD τ).loc main_arg1)) (m ((c : Thread nD τ).loc main_arg2))
    (m ((c : Thread nD τ).loc main_arg3)) ((dat0 (V1 m ρ) c).arrAt 5 cfg0.N) := by
  have e : V3 m ρ c main_v27 = agg (W2 m ρ c (Proc.devRef .tc main_arg1)) (W2 m ρ c (Proc.devRef .tc main_arg2))
      (W2 m ρ c (Proc.devRef .tc main_arg3)) (W2 m ρ c (Proc.devRef .tc main_v14)) := by
    show StableHlo.after hostOps1 (W2 m ρ c) (Proc.devRef .tc main_v27) = _
    after_results; rfl
  rw [e, W2_arg1, W2_arg2, W2_arg3]
  exact congrArg _ (W2_arr m ρ c 5)
/-- The second call's bias operand is the second bias vector as a row. -/
theorem V3_v28 : V3 m ρ c main_v28 = row (m ((c : Thread nD τ).loc main_arg9)) := by
  have e : V3 m ρ c main_v28 = shapeCast S1x64 (W2 m ρ c (Proc.devRef .tc main_arg9)) shapeCasts_S64_S1x64 := by
    show StableHlo.after hostOps1 (W2 m ρ c) (Proc.devRef .tc main_v28) = _
    after_results; rfl
  rw [e, W2_arg9, reshape_row]

end Cert.Sage.Host

end
-- ==== Proof.KernelValue.lean ====
/-
  The kernel program's result is the two dense layers over the neighbour aggregate.

  The result buffer ends at the second call's output array. That array is the dense layer of the five arrays the second call
  finds: the first call's output array, its aggregate, the second layer's weights and bias row. The first call's output array is in
  turn the rectified dense layer of the five arrays the first call finds: the features, their aggregate, the first layer's weights
  and bias row. Put together, the result is the two-layer network of the arguments.
-/
import proofs.«127148_j29901562315009_1_alg».proof.Proof.KernelRun
import proofs.«127148_j29901562315009_1_alg».proof.Proof.Region0
import proofs.«127148_j29901562315009_1_alg».proof.Proof.Region1
import proofs.«127148_j29901562315009_1_alg».proof.Proof.HostK

noncomputable section

namespace Cert.Sage.Kernel

open Cert.Sage Cert.Sage.Host Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- THE HIDDEN FEATURES: the first call's output array is the rectified dense layer of the features and their aggregate. -/
theorem hidden (c : Dev nD) : (dat0 (V1 m ρ) c).arrAt 5 cfg0.N
    = layerRelu (m ((c : Thread nD τ).loc main_arg0))
        (agg (m ((c : Thread nD τ).loc main_arg1)) (m ((c : Thread nD τ).loc main_arg2)) (m ((c : Thread nD τ).loc main_arg3))
          (m ((c : Thread nD τ).loc main_arg0)))
        (m ((c : Thread nD τ).loc main_arg4)) (m ((c : Thread nD τ).loc main_arg5)) (row (m ((c : Thread nD τ).loc main_arg6))) := by
  rw [Region0.final (V1 m ρ) c, V1_arg0, V1_v12, V1_arg4, V1_arg5, V1_v13]

/-- THE RESULT: what the fold of the four stretches leaves in the result buffer is the network of the arguments. -/
theorem result (c : Dev nD) : V4 m ρ c main_v29
    = net (agg (m ((c : Thread nD τ).loc main_arg1)) (m ((c : Thread nD τ).loc main_arg2)) (m ((c : Thread nD τ).loc main_arg3)))
        (m ((c : Thread nD τ).loc main_arg0)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  have e : V4 m ρ c main_v29 = (dat1 (V3 m ρ) c).arrAt 5 cfg1.N := W4_arr m ρ c 5
  rw [e, Region1.final (V3 m ρ) c, V3_v14, V3_v27, V3_arg7, V3_arg8, V3_v28, hidden]
  rfl

/-- The program's run with the result named: every weakly fair execution terminates, nothing faulting, with the result buffer at
    the network of the arguments and the arguments as launched. -/
theorem run : θ_run defs (onTc (τ := τ) (main (F := Ideal))) ⟨m, fun _ => 0, ρ⟩ (fun r => ∀ c : Dev nD,
      r.2.mem ((c.tc : Thread nD τ).loc main_v29)
        = net (agg (m ((c : Thread nD τ).loc main_arg1)) (m ((c : Thread nD τ).loc main_arg2)) (m ((c : Thread nD τ).loc main_arg3)))
            (m ((c : Thread nD τ).loc main_arg0)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (Cert.KernelIdeal.Result.run m ρ)

end Cert.Sage.Kernel

end
-- ==== Proof.RefSide.lean ====
/-
  The reference program's result is the two dense layers over the neighbour aggregate.

  The reference computes, per layer, the aggregate of the layer's input by the same chain of host operations as the kernel
  program (wrap the source indices, gather, scale by the edge weights, add into the destinations), then two matrix products, their
  sum, the bias broadcast down the rows and, after the first layer, the rectifier. Read at row `p`, column `q`, a matrix product is
  `∑ₖ x[p, k] · W[k, q]` and the broadcast bias is `b[q]`; so the first layer is the rectified dense layer of the features and
  their aggregate, and the result is the dense layer of the hidden features and THEIR aggregate — the second layer's chain being the
  first layer's chain applied to the hidden features.
-/
import proofs.«127148_j29901562315009_1_alg».proof.Proof.Gen.ReferenceIdeal.Read
import proofs.«127148_j29901562315009_1_alg».proof.Proof.Dense

noncomputable section

open scoped BigOperators

namespace Cert.Sage.Ref

open Cert.Sage Cert.ReferenceIdeal Cert.ReferenceIdeal.Read
open Idealize.ShloMosaic Idealize.ShloMosaic.TcCoe Idealize.ShloMosaic.ValueIdx Idealize.SL.Sem

/-- The neighbour aggregate of `h` as the reference's host operations spell it: the first layer's chain with `h` for the features. -/
def agg (src dst : (⟨S3200000, .i32⟩ : BufTy).Contents (Elt Ideal)) (w : (⟨S3200000, .f32⟩ : BufTy).Contents (Elt Ideal))
    (h : (⟨S100000x64, .f32⟩ : BufTy).Contents (Elt Ideal)) : (⟨S100000x64, .f32⟩ : BufTy).Contents (Elt Ideal) :=
  val_main_v12 (F := Ideal) h src dst w

/-- The second layer's chain is the first layer's, applied to the hidden features. -/
theorem second_agg (x0 : (⟨S100000x64, .f32⟩ : BufTy).Contents (Elt Ideal)) (x1 x2 : (⟨S3200000, .i32⟩ : BufTy).Contents (Elt Ideal)) (x3 : (⟨S3200000, .f32⟩ : BufTy).Contents (Elt Ideal)) (x4 x5 : (⟨S64x64, .f32⟩ : BufTy).Contents (Elt Ideal)) (x6 : (⟨S64, .f32⟩ : BufTy).Contents (Elt Ideal)) :
    val_main_v32 (F := Ideal) x0 x1 x2 x3 x4 x5 x6 = agg x1 x2 x3 (val_main_v19 (F := Ideal) x0 x1 x2 x3 x4 x5 x6) := rfl

/-- The operand indices of the four matrix products and of the two bias broadcasts, at entry `(p, q)`. -/
theorem l13 (p : Fin 100000) (q k : Fin 64) : lidx_main_v13 (ix2 p q) k = ix2 p k :=
  funext fun a => Fin.ext (by match a with | ⟨0, _⟩ => rfl | ⟨1, _⟩ => rfl)
theorem r13 (p : Fin 100000) (q k : Fin 64) : ridx_main_v13 (ix2 p q) k = ix2 k q :=
  funext fun a => Fin.ext (by match a with | ⟨0, _⟩ => rfl | ⟨1, _⟩ => rfl)
theorem l14 (p : Fin 100000) (q k : Fin 64) : lidx_main_v14 (ix2 p q) k = ix2 p k :=
  funext fun a => Fin.ext (by match a with | ⟨0, _⟩ => rfl | ⟨1, _⟩ => rfl)
theorem r14 (p : Fin 100000) (q k : Fin 64) : ridx_main_v14 (ix2 p q) k = ix2 k q :=
  funext fun a => Fin.ext (by match a with | ⟨0, _⟩ => rfl | ⟨1, _⟩ => rfl)
theorem l33 (p : Fin 100000) (q k : Fin 64) : lidx_main_v33 (ix2 p q) k = ix2 p k :=
  funext fun a => Fin.ext (by match a with | ⟨0, _⟩ => rfl | ⟨1, _⟩ => rfl)
theorem r33 (p : Fin 100000) (q k : Fin 64) : ridx_main_v33 (ix2 p q) k = ix2 k q :=
  funext fun a => Fin.ext (by match a with | ⟨0, _⟩ => rfl | ⟨1, _⟩ => rfl)
theorem l34 (p : Fin 100000) (q k : Fin 64) : lidx_main_v34 (ix2 p q) k = ix2 p k :=
  funext fun a => Fin.ext (by match a with | ⟨0, _⟩ => rfl | ⟨1, _⟩ => rfl)
theorem r34 (p : Fin 100000) (q k : Fin 64) : ridx_main_v34 (ix2 p q) k = ix2 k q :=
  funext fun a => Fin.ext (by match a with | ⟨0, _⟩ => rfl | ⟨1, _⟩ => rfl)
theorem b17 (p : Fin 100000) (q : Fin 64) : idx_main_v16 (idx_main_v17 (ix2 p q)) = ix1 q :=
  funext fun a => Fin.ext (by match a with | ⟨0, _⟩ => rfl)
theorem b37 (p : Fin 100000) (q : Fin 64) : idx_main_v36 (idx_main_v37 (ix2 p q)) = ix1 q :=
  funext fun a => Fin.ext (by match a with | ⟨0, _⟩ => rfl)

/-- THE HIDDEN FEATURES: the reference's first layer is the rectified dense layer of the features and their aggregate. -/
theorem hidden (x0 : (⟨S100000x64, .f32⟩ : BufTy).Contents (Elt Ideal)) (x1 x2 : (⟨S3200000, .i32⟩ : BufTy).Contents (Elt Ideal)) (x3 : (⟨S3200000, .f32⟩ : BufTy).Contents (Elt Ideal)) (x4 x5 : (⟨S64x64, .f32⟩ : BufTy).Contents (Elt Ideal)) (x6 : (⟨S64, .f32⟩ : BufTy).Contents (Elt Ideal)) :
    val_main_v19 (F := Ideal) x0 x1 x2 x3 x4 x5 x6 = layerRelu x0 (agg x1 x2 x3 x0) x4 x5 (row x6) := by
  funext i
  obtain ⟨p, q, rfl⟩ : ∃ (p : Fin 100000) (q : Fin 64), i = ix2 p q := ⟨i 0, i 1, eq_ix2 i⟩
  rw [val_main_v19_apply, val_main_v18_apply, val_main_v15_apply, val_main_v13_apply, val_main_v14_apply, val_main_v17_apply,
    val_main_v16_apply, val_main_call0_v0_apply, val_main_call0_cst_apply]
  simp only [l13, r13, l14, r14, b17]
  rfl

/-- THE RESULT: the reference's second layer is the dense layer of the hidden features and their aggregate. -/
theorem result (x0 : (⟨S100000x64, .f32⟩ : BufTy).Contents (Elt Ideal)) (x1 x2 : (⟨S3200000, .i32⟩ : BufTy).Contents (Elt Ideal)) (x3 : (⟨S3200000, .f32⟩ : BufTy).Contents (Elt Ideal)) (x4 x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) :
    val_main_v38 (F := Ideal) x0 x1 x2 x3 x4 x5 x6 x7 x8 x9 = net (agg x1 x2 x3) x0 x4 x5 x6 x7 x8 x9 := by
  have second : val_main_v38 (F := Ideal) x0 x1 x2 x3 x4 x5 x6 x7 x8 x9
      = layer (val_main_v19 (F := Ideal) x0 x1 x2 x3 x4 x5 x6) (agg x1 x2 x3 (val_main_v19 (F := Ideal) x0 x1 x2 x3 x4 x5 x6)) x7 x8 (row x9) := by
    funext i
    obtain ⟨p, q, rfl⟩ : ∃ (p : Fin 100000) (q : Fin 64), i = ix2 p q := ⟨i 0, i 1, eq_ix2 i⟩
    rw [val_main_v38_apply, val_main_v35_apply, val_main_v33_apply, val_main_v34_apply, val_main_v37_apply, val_main_v36_apply,
      second_agg]
    simp only [l33, r33, l34, r34, b37]
    rfl
  rw [second, hidden]
  rfl

end Cert.Sage.Ref

end
-- ==== Proof.lean ====
/-
  A two-layer graph convolution, computed by a kernel program and by a reference, gives the same numbers over the extended reals.

  Each layer sends node features `h` to `h · W_self + agg(h) · W_neigh + b`, where `agg(h)` gathers the rows of `h` at the edges'
  sources, scales them by the edge weights and adds them into the edges' destinations; the first layer is followed by the rectifier.
  Both programs compute `agg` with the same host operations. They differ in the dense half: the kernel program runs it as a
  pallas_call over ten tiles of 10000 node rows, rounding the matrix operands to a narrower float format on the way in, where the
  reference applies two whole-array matrix products. Over the extended reals the rounding is the identity and a matrix product
  entry is the sum `∑ₖ x[p, k] · W[k, q]` however it is tiled, so both results are the same function `Cert.Sage.net` of the arguments,
  entry by entry. No law used needs the inputs finite: the precondition is never opened.

  The kernel side: `Proof/KernelRun.lean` (the run with the result buffer kept), `Proof/Region0.lean`, `Proof/Region1.lean` (each
  call's output array as one function of the arrays it reads, from the tiles), `Proof/Tile0.lean`, `Proof/Tile1.lean` (a tile's
  entry), `Proof/HostK.lean` (what the host operations leave for each call), `Proof/KernelValue.lean` (the result). The reference
  side: `Proof/RefSide.lean`. The specification: `Proof/Dense.lean`.
-/
import proofs.«127148_j29901562315009_1_alg».proof.Defs
import proofs.«127148_j29901562315009_1_alg».proof.Proof.Gen.Kernel
import proofs.«127148_j29901562315009_1_alg».proof.Proof.Gen.Kernel.Frame
import proofs.«127148_j29901562315009_1_alg».proof.Proof.Gen.KernelIdeal
import proofs.«127148_j29901562315009_1_alg».proof.Proof.Gen.KernelIdeal.Frame
import proofs.«127148_j29901562315009_1_alg».proof.Proof.Gen.ReferenceIdeal
import proofs.«127148_j29901562315009_1_alg».proof.Proof.Gen.Pre_finite_inputs
import proofs.«127148_j29901562315009_1_alg».proof.Proof.Gen.ReferenceIdeal.Run
import proofs.«127148_j29901562315009_1_alg».proof.Proof.Gen.ReferenceIdeal.Read
import proofs.«127148_j29901562315009_1_alg».proof.Proof.KernelValue
import proofs.«127148_j29901562315009_1_alg».proof.Proof.RefSide
import Idealize.ShloMosaic.Adequacy
import Idealize.ShloMosaic.Init

noncomputable section

namespace Cert.Proof

open Idealize.ShloMosaic Idealize.SL.Sem

/-- Both programs spell the neighbour aggregate with the same operations and the same dimension numbers. -/
theorem agg_eq : @Cert.Sage.Ref.agg = @Cert.Sage.Host.agg := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the ten arguments both programs end with the network of the arguments in their result buffers. -/
theorem algebraic : Cert.algebraic_KernelIdeal_ReferenceIdeal := by
  intro m ρ m' ρ' _ hagree
  refine ⟨fun c => Cert.Sage.net (Cert.Sage.Host.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v38_eq, Cert.Sage.Ref.result, a0, a1, a2, a3, a4, a5, a6, a7, a8, a9, agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
